-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x256 : Shape := ⟨3, ![8, 1024, 256]⟩
abbrev S8192x256 : Shape := ⟨2, ![8192, 256]⟩
abbrev S_ : Shape := ⟨0, ![]⟩

class Facts : Prop where
  bcast_S_S8x1024x256 : S_.BroadcastsInDim S8x1024x256 (![] : Fin 0 → Fin S8x1024x256.rank)
  reducesTo_S8x1024x256_S_d0_1_2 : S8x1024x256.ReducesTo [0, 1, 2] S_
  h_S_ : 0 < S_.numel
  bcast_S_S8192x256 : S_.BroadcastsInDim S8192x256 (![] : Fin 0 → Fin S8192x256.rank)
  reducesTo_S8192x256_S_d0_1 : S8192x256.ReducesTo [0, 1] S_

variable [Facts]

def fn {F : FTy → Type} [FloatOps F] (main_arg0 : FVec F S8x1024x256 .f32) (main_arg1 : FVec F S8192x256 .f32) : IVec S_ 1 :=
  let main_v0 : FVec F S8x1024x256 .f32 := Host.absf main_arg0
  let main_cst : FVec F S_ .f32 := constant S_ .f32 0x7F800000#32
  let main_v1 : FVec F S8x1024x256 .f32 := broadcastInDim S8x1024x256 ![] bcast_S_S8x1024x256 main_cst
  let main_v2 : IVec S8x1024x256 1 := cmpf .olt main_v0 main_v1
  let main_c : IVec S_ 1 := constantI S_ 1 1#1
  let main_v3 : IVec S_ 1 := (fun x v => Host.reduce IntOp.andi x v reducesTo_S8x1024x256_S_d0_1_2 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8x1024x256 : Shape := ⟨3, ![8, 1024, 256]⟩
abbrev S8192x256 : Shape := ⟨2, ![8192, 256]⟩
abbrev S8192x8192 : Shape := ⟨2, ![8192, 8192]⟩
abbrev S256x256 : Shape := ⟨2, ![256, 256]⟩
abbrev S256x8192 : Shape := ⟨2, ![256, 8192]⟩
abbrev S8192 : Shape := ⟨1, ![8192]⟩
abbrev S8192x1 : Shape := ⟨2, ![8192, 1]⟩
abbrev S256 : Shape := ⟨1, ![256]⟩
abbrev S256x1 : Shape := ⟨2, ![256, 1]⟩
abbrev S8x1024x8192 : Shape := ⟨3, ![8, 1024, 8192]⟩

abbrev nBuf : Space → Nat
  | .hbm => 5
  | .vmem => 6
  | .smem => 0
  | _ => 0

abbrev bufTy : (tb : Table) → Fin (tcTables nBuf tb) → BufTy
  | .hbm, ⟨0, _⟩ => ⟨S8x1024x256, .f32⟩
  | .hbm, ⟨1, _⟩ => ⟨S8192x256, .f32⟩
  | .hbm, ⟨2, _⟩ => ⟨S8192x256, .f32⟩
  | .hbm, ⟨3, _⟩ => ⟨S8192x8192, .f32⟩
  | .hbm, ⟨4, _⟩ => ⟨S8x1024x8192, .f32⟩
  | .local _ .vmem, ⟨0, _⟩ => ⟨S256x256, .f32⟩
  | .local _ .vmem, ⟨1, _⟩ => ⟨S256x256, .f32⟩
  | .local _ .vmem, ⟨2, _⟩ => ⟨S8192x256, .f32⟩
  | .local _ .vmem, ⟨3, _⟩ => ⟨S256x8192, .f32⟩
  | .local _ .vmem, ⟨4, _⟩ => ⟨S256x8192, .f32⟩
  | .local _ .vmem, ⟨5, _⟩ => ⟨S8192x256, .bf16⟩
  | _, _ => ⟨S8x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8x1024x256_S8192x256 : S8x1024x256.ShapeCasts S8192x256
  inb_S8192x256_S8192x256_0_0 : ∀ a, (![0, 0] : Fin 2 → Nat) a + S8192x256.size a ≤ S8192x256.size a
  h_S8192x256 : 0 < S8192x256.numel
  reduces_S8192x256_S8192 : S8192x256.Reduces [1] S8192
  shapeCasts_S8192_S8192x1 : S8192.ShapeCasts S8192x1
  broadcasts_S8192x1_S8192x256 : S8192x1.Broadcasts S8192x256
  bitsLt_bf16_f32 : FTy.bits .bf16 < FTy.bits .f32
  shapeCasts_S8192x256_S8192x256 : S8192x256.ShapeCasts S8192x256
  packedbf16_S8192x256_S8192x256_0_0 : (Rect.unit (s := S8192x256) ![0, 0] S8192x256.size inb_S8192x256_S8192x256_0_0).PackedRows (EltTy.packing .bf16)
  inb_S256x256_S256x256_0_0 : ∀ a, (![0, 0] : Fin 2 → Nat) a + S256x256.size a ≤ S256x256.size a
  h_S256x256 : 0 < S256x256.numel
  shapeCasts_S256x256_S256x256 : S256x256.ShapeCasts S256x256
  reduces_S256x256_S256 : S256x256.Reduces [1] S256
  shapeCasts_S256_S256x1 : S256.ShapeCasts S256x1
  broadcasts_S256x1_S256x256 : S256x1.Broadcasts S256x256
  inb_S256x8192_S256x8192_0_0 : ∀ a, (![0, 0] : Fin 2 → Nat) a + S256x8192.size a ≤ S256x8192.size a
  h_S256x8192 : 0 < S256x8192.numel
  shapeCasts_S8192x8192_S8x1024x8192 : S8192x8192.ShapeCasts S8x1024x8192
  dot_S256x256_S8192x256_S256x8192_1_1_0_0_n_n_wf : DotDims.WF S256x256 S8192x256 S256x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S8192x256.size a
  hwx0_0 : ∀ i : grid0.Coords, EltTy.bits .f32 = 32 ∨ (Rect.block (s := S8192x256) S256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .f32 = 32 ∨ (Rect.block (s := S8192x256) S8192x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x8192.size a ≤ S8192x8192.size a
  hwx0_2 : ∀ i : grid0.Coords, EltTy.bits .f32 = 32 ∨ (Rect.block (s := S8192x8192) S256x8192.size (cc0_transform_2 i) (hinb0_2 i)).WholeWords (EltTy.packing .f32)

variable [Facts₀]

def dot_S256x256_S8192x256_S256x8192_1_1_0_0_n_n : DotDims S256x256 S8192x256 S256x8192 where
  lhsContracting := [1]
  rhsContracting := [1]
  lhsNonContracting := [0]
  rhsNonContracting := [0]
  lhsBatch := []
  rhsBatch := []
  wf := dot_S256x256_S8192x256_S256x8192_1_1_0_0_n_n_wf

abbrev win0_0 : Pipeline.Window sig grid0 :=
  Pipeline.Window.ofSpec (Memref.whole main_v0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x1024x256 : Shape := ⟨3, ![8, 1024, 256]⟩
abbrev S8192x256 : Shape := ⟨2, ![8192, 256]⟩
abbrev S_ : Shape := ⟨0, ![]⟩
abbrev S8x1024 : Shape := ⟨2, ![8, 1024]⟩
abbrev S8x1024x1 : Shape := ⟨3, ![8, 1024, 1]⟩
abbrev S8192 : Shape := ⟨1, ![8192]⟩
abbrev S8192x1 : Shape := ⟨2, ![8192, 1]⟩
abbrev S8x1024x8192 : Shape := ⟨3, ![8, 1024, 8192]⟩

abbrev nBuf : Space → Nat
  | .hbm => 23
  | .vmem => 0
  | .smem => 0
  | _ => 0

abbrev bufTy : (tb : Table) → Fin (tcTables nBuf tb) → BufTy
  | .hbm, ⟨0, _⟩ => ⟨S8x1024x256, .f32⟩
  | .hbm, ⟨1, _⟩ => ⟨S8192x256, .f32⟩
  | .hbm, ⟨2, _⟩ => ⟨S8x1024x256, .f32⟩
  | .hbm, ⟨3, _⟩ => ⟨S_, .f32⟩
  | .hbm, ⟨4, _⟩ => ⟨S8x1024, .f32⟩
  | .hbm, ⟨5, _⟩ => ⟨S8x1024x1, .f32⟩
  | .hbm, ⟨6, _⟩ => ⟨S8x1024x1, .f32⟩
  | .hbm, ⟨7, _⟩ => ⟨S_, .f32⟩
  | .hbm, ⟨8, _⟩ => ⟨S8x1024x1, .f32⟩
  | .hbm, ⟨9, _⟩ => ⟨S8x1024x1, .f32⟩
  | .hbm, ⟨10, _⟩ => ⟨S8x1024x256, .f32⟩
  | .hbm, ⟨11, _⟩ => ⟨S8x1024x256, .f32⟩
  | .hbm, ⟨12, _⟩ => ⟨S8192x256, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x256, .f32⟩
  | .hbm, ⟨21, _⟩ => ⟨S8192x256, .f32⟩
  | .hbm, ⟨22, _⟩ => ⟨S8x1024x8192, .f32⟩
  | _, _ => ⟨S8x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]

class Facts₀ : Prop where
  reducesTo_S8x1024x256_S8x1024_d2 : S8x1024x256.ReducesTo [2] S8x1024
  h_S_ : 0 < S_.numel
  bcast_S8x1024_S8x1024x1_0_1 : S8x1024.BroadcastsInDim S8x1024x1 (![0, 1] : Fin 2 → Fin S8x1024x1.rank)
  bcast_S_S8x1024x1 : S_.BroadcastsInDim S8x1024x1 (![] : Fin 0 → Fin S8x1024x1.rank)
  bcast_S8x1024x1_S8x1024x256_0_1_2 : S8x1024x1.BroadcastsInDim S8x1024x256 (![0, 1, 2] : Fin 3 → Fin S8x1024x256.rank)
  reducesTo_S8192x256_S8192_d1 : S8192x256.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  dot_S8x1024x256_S8192x256_S8x1024x8192_2_1_01_0_n_n_wf : DotDims.WF S8x1024x256 S8192x256 S8x1024x8192 [2] [1] [0, 1] [0] [] []

variable [Facts₀]

def dot_S8x1024x256_S8192x256_S8x1024x8192_2_1_01_0_n_n : DotDims S8x1024x256 S8192x256 S8x1024x8192 where
  lhsContracting := [2]
  rhsContracting := [1]
  lhsNonContracting := [0, 1]
  rhsNonContracting := [0]
  lhsBatch := []
  rhsBatch := []
  wf := dot_S8x1024x256_S8192x256_S8x1024x8192_2_1_01_0_n_n_wf

class Facts : Prop extends Facts₀ where

variable [Facts]
-- ==== Proof.Spec.lean ====
/-
  The cosine-similarity logits, as one function of two rows.

  A row of 256 extended reals is scaled by its Euclidean length plus a small constant eps (the float word 0x322BCC77,
  about 1e-8): unit row d = row d / (sqrt (sum over d' of row d' * row d') + eps). The logit of a query row q against a
  codebook row s is the inner product of the two scaled rows, logit q s = sum over d of unit q d * unit s d.
  Both programs compute exactly this, entry by entry and term by term, so no law of arithmetic beyond re-indexing a
  finite sum is needed, and in particular nothing needs the inputs to be finite.
-/
import Idealize.ShloMosaic.PureOps.Ideal
import Idealize.ShloMosaic.PureOps.Ideal.Laws
import Idealize.ShloMosaic.Lib.ValueIdx

noncomputable section

namespace Cert.Cosine

open Idealize.ShloMosaic

/-- The small constant added to a row's length: the value of the float word both programs print. -/
def eps : EReal := Ideal.ofBits .f32 0x322BCC77#32

/-- A row's Euclidean length plus eps. -/
def scale (row : Fin 256 → EReal) : EReal :=
  Ideal.sqrt (∑ d : Fin 256, row d * row d) + eps

/-- The row divided by its length plus eps. -/
def unit (row : Fin 256 → EReal) (d : Fin 256) : EReal := Ideal.div (row d) (scale row)

/-- The inner product of the scaled query row with the scaled codebook row. -/
def logit (q s : Fin 256 → EReal) : EReal := ∑ d : Fin 256, unit q d * unit s d

/-- Every logit: entry (b, l, k) is the logit of query row (b, l) of a query array z against row k of a codebook s. -/
def allLogits (z : (⟨3, ![8, 1024, 256]⟩ : Shape).Idx → EReal) (s : (⟨2, ![8192, 256]⟩ : Shape).Idx → EReal) :
    (⟨3, ![8, 1024, 8192]⟩ : Shape).Idx → EReal :=
  fun i => logit (fun d => z (ValueIdx.ix3 (i 0) (i 1) d)) (fun d => s (ValueIdx.ix2 (i 2) d))

end Cert.Cosine

end
-- ==== Proof.RefSide.lean ====
/-
  The reference's result read at an index: the logit of a query row against a codebook row.

  The reference scales every query row z (b, l, ·) and every codebook row s (k, ·) by its length plus eps, and
  contracts the two scaled arrays over their last axis. Its host sum of a row's squares starts from the zero word,
  which is the extended real 0, so it is the plain sum. Read at (b, l, k), the result is the sum over d of the
  scaled query row (b, l) at d times the scaled codebook row k at d.
-/
import proofs.«130160_g72834055405689_cont_9to1c4b_399_5_alg».proof.Defs
import proofs.«130160_g72834055405689_cont_9to1c4b_399_5_alg».proof.Proof.Gen.ReferenceIdeal.Run
import proofs.«130160_g72834055405689_cont_9to1c4b_399_5_alg».proof.Proof.Gen.ReferenceIdeal.Read
import proofs.«130160_g72834055405689_cont_9to1c4b_399_5_alg».proof.Proof.Spec

noncomputable section

namespace Cert.RefSide

open Idealize.ShloMosaic Idealize.ShloMosaic.ValueIdx Cert.ReferenceIdeal Cert.ReferenceIdeal.Read Cert.Cosine

/-! The composed index functions of the reference's layout operations, at explicit coordinates. -/

theorem lidx_eq (b : Fin 8) (l : Fin 1024) (k : Fin 8192) (d : Fin 256) : lidx_main_v10 (ix3 b l k) d = ix3 b l d :=
  funext fun a => Fin.ext (by match a with | ⟨0, _⟩ => rfl | ⟨1, _⟩ => rfl | ⟨2, _⟩ => rfl)
theorem ridx_eq (b : Fin 8) (l : Fin 1024) (k : Fin 8192) (d : Fin 256) : ridx_main_v10 (ix3 b l k) d = ix2 k d :=
  funext fun a => Fin.ext (by match a with | ⟨0, _⟩ => rfl | ⟨1, _⟩ => rfl)
theorem idx_v3_eq (b : Fin 8) (l : Fin 1024) (d : Fin 256) : idx_main_v3 (ix3 b l d) = ix3 b l (0 : Fin 1) :=
  funext fun a => Fin.ext (by match a with | ⟨0, _⟩ => rfl | ⟨1, _⟩ => rfl | ⟨2, _⟩ => rfl)
theorem idx_call0_v2_eq (b : Fin 8) (l : Fin 1024) : idx_main_call0_v2 (ix3 b l (0 : Fin 1)) = ix2 b l :=
  funext fun a => Fin.ext (by match a with | ⟨0, _⟩ => rfl | ⟨1, _⟩ => rfl)
theorem idx_call0_v1_eq (b : Fin 8) (l : Fin 1024) (d : Fin 256) : idx_main_call0_v1 (ix2 b l) d = ix3 b l d :=
  funext fun a => Fin.ext (by match a with | ⟨0, _⟩ => rfl | ⟨1, _⟩ => rfl | ⟨2, _⟩ => rfl)
theorem idx_v8_eq (k : Fin 8192) (d : Fin 256) : idx_main_v8 (ix2 k d) = ix2 k (0 : Fin 1) :=
  funext fun a => Fin.ext (by match a with | ⟨0, _⟩ => rfl | ⟨1, _⟩ => rfl)
theorem idx_call1_v2_eq (k : Fin 8192) : idx_main_call1_v2 (ix2 k (0 : Fin 1)) = ix1 k :=
  funext fun a => Fin.ext (by match a with | ⟨0, _⟩ => rfl)
theorem idx_call1_v1_eq (k : Fin 8192) (d : Fin 256) : idx_main_call1_v1 (ix1 k) d = ix2 k d :=
  funext fun a => Fin.ext (by match a with | ⟨0, _⟩ => rfl | ⟨1, _⟩ => rfl)

/-- The reference's scaled queries: entry (b, l, d) is the scaled query row (b, l) at d. -/
theorem scaled_query_apply (x0 : FVec Ideal S8x1024x256 .f32) (b : Fin 8) (l : Fin 1024) (d : Fin 256) :
    val_main_v4 (F := Ideal) x0 (ix3 b l d) = unit (fun d' => x0 (ix3 b l d')) d := by
  rw [val_main_v4_apply, val_main_v3_apply, idx_v3_eq, val_main_v2_apply, val_main_v0_apply, val_main_call0_v2_apply,
    idx_call0_v2_eq, val_main_call0_v1_apply, val_main_v1_apply, val_main_cst_apply, val_main_call0_cst_apply]
  simp only [idx_call0_v1_eq, val_main_call0_v0_apply, Ideal.hostDivf_def, Ideal.addf_def, Ideal.hostUnary_sqrt_def,
    Ideal.mulf_def, Ideal.ofBits_def, Ideal.ofBits_zero_f32, zero_add]
  rfl

/-- The reference's scaled codebook: entry (k, d) is the scaled codebook row k at d. -/
theorem scaled_codebook_apply (x1 : FVec Ideal S8192x256 .f32) (k : Fin 8192) (d : Fin 256) :
    val_main_v9 (F := Ideal) x1 (ix2 k d) = unit (fun d' => x1 (ix2 k d')) d := by
  rw [val_main_v9_apply, val_main_v8_apply, idx_v8_eq, val_main_v7_apply, val_main_v5_apply, val_main_call1_v2_apply,
    idx_call1_v2_eq, val_main_call1_v1_apply, val_main_v6_apply, val_main_cst_0_apply, val_main_call1_cst_apply]
  simp only [idx_call1_v1_eq, val_main_call1_v0_apply, Ideal.hostDivf_def, Ideal.addf_def, Ideal.hostUnary_sqrt_def,
    Ideal.mulf_def, Ideal.ofBits_def, Ideal.ofBits_zero_f32, zero_add]
  rfl

/-- The reference's result at (b, l, k): the logit of query row (b, l) against codebook row k. -/
theorem result_apply (x0 : FVec Ideal S8x1024x256 .f32) (x1 : FVec Ideal S8192x256 .f32)
    (b : Fin 8) (l : Fin 1024) (k : Fin 8192) :
    val_main_v10 (F := Ideal) x0 x1 (ix3 b l k) = logit (fun d => x0 (ix3 b l d)) (fun d => x1 (ix2 k d)) := by
  rw [val_main_v10_apply]
  unfold logit
  refine Finset.sum_congr rfl fun d _ => ?_
  rw [lidx_eq, ridx_eq, scaled_query_apply, scaled_codebook_apply]

/-- The reference's whole result is every logit of the query array's rows against the codebook's rows. -/
theorem reference_eq (x0 : FVec Ideal S8x1024x256 .f32) (x1 : FVec Ideal S8192x256 .f32) :
    val_main_v10 (F := Ideal) x0 x1 = allLogits x0 x1 := by
  funext i
  obtain ⟨b, l, k, rfl⟩ : ∃ (b : Fin 8) (l : Fin 1024) (k : Fin 8192), i = ix3 b l k := ⟨i 0, i 1, i 2, eq_ix3 i⟩
  exact result_apply x0 x1 b l k

end Cert.RefSide

end
-- ==== Proof.Pieces.lean ====
/-
  What one run of the kernel body leaves behind, as values of what it loaded.

  At the first grid point the body first overwrites the whole scratch with the scaled codebook computed from the
  codebook block it loaded, then reads the scratch back and stores, over the whole output block, the product of the
  scaled query block with the transpose of that scratch. At every later point the body leaves the scratch as the point
  before left it and stores the same product against it. Each store covers its whole buffer, so what the buffer holds
  afterwards is the stored value, and a load of a whole buffer reads the buffer's contents.
-/
import proofs.«130160_g72834055405689_cont_9to1c4b_399_5_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem Cert.KernelIdeal Cert.KernelIdeal.Gen

variable {F : FTy → Type} [FloatOps F]

theorem offsets_zero : (![0, 0] : Fin 2 → Nat) = fun _ => 0 := funext fun a => by fin_cases a <;> rfl

/-- At the first point the scratch ends holding the scaled codebook of the loaded codebook block. -/
theorem scratch_first (c : Dev nD) (i : grid0.Coords) (arg1 : Memref sig .tc .vmem S256x256 .f32) (harg1 : arg1.IsWhole) (arg2 : Memref sig .tc .vmem S8192x256 .f32) (harg2 : arg2.IsWhole) (arg3 : Memref sig .tc .vmem S256x8192 .f32) (harg3 : arg3.IsWhole) (arg4 : Memref sig .tc .vmem S8192x256 .bf16) (harg4 : arg4.IsWhole) (hc0 : cond0_0 i)
    (x0 : Vec F S256x256 .f32) (x1 : Vec F S8192x256 .f32) :
    sout0_A_0 c i arg1 harg1 arg2 harg2 arg3 harg3 arg4 harg4 hc0 x0 x1 = k0_pay1 x1 := by
  unfold sout0_A_0
  rw [View.read_writes_eq_canon _ _ _ (scover0_A_0 c i arg1 harg1 arg2 harg2 arg3 harg3 arg4 harg4 hc0 x0 x1)]
  unfold kernelRun0_A
  dsimp only
  sl_unfold_words
  rw [View.canon_unit_zero offsets_zero]
  simp only [View.readAt_eq_ld, harg2.read_unread, View.ld_unit_zero (S := S8192x256) offsets_zero]

/-- At the first point the output block ends holding the product of the scaled query block with the scaled codebook
    just stored (the scratch is read back after its store). -/
theorem block_first (c : Dev nD) (i : grid0.Coords) (arg1 : Memref sig .tc .vmem S256x256 .f32) (harg1 : arg1.IsWhole) (arg2 : Memref sig .tc .vmem S8192x256 .f32) (harg2 : arg2.IsWhole) (arg3 : Memref sig .tc .vmem S256x8192 .f32) (harg3 : arg3.IsWhole) (arg4 : Memref sig .tc .vmem S8192x256 .bf16) (harg4 : arg4.IsWhole) (hc0 : cond0_0 i)
    (x0 : Vec F S256x256 .f32) (x1 : Vec F S8192x256 .f32) :
    out0_A_2 c i arg1 harg1 arg2 harg2 arg3 harg3 arg4 harg4 hc0 x0 x1 = k0_pay2 x0 (k0_pay1 x1) := by
  unfold out0_A_2
  rw [View.read_writes_eq_canon _ _ _ (cover0_A_2 c i arg1 harg1 arg2 harg2 arg3 harg3 arg4 harg4 hc0 x0 x1)]
  unfold kernelRun0_A
  dsimp only
  sl_unfold_words
  rw [View.canon_unit_zero offsets_zero, View.readCov_unit_zero (S := S8192x256) _ offsets_zero]
  simp only [View.readAt_eq_ld, harg1.read_unread, harg2.read_unread, View.ld_unit_zero (S := S256x256) offsets_zero,
    View.ld_unit_zero (S := S8192x256) offsets_zero]

/-- At a later point the output block ends holding the product of the scaled query block with what the scratch held. -/
theorem block_later (c : Dev nD) (i : grid0.Coords) (arg1 : Memref sig .tc .vmem S256x256 .f32) (harg1 : arg1.IsWhole) (arg2 : Memref sig .tc .vmem S8192x256 .f32) (harg2 : arg2.IsWhole) (arg3 : Memref sig .tc .vmem S256x8192 .f32) (harg3 : arg3.IsWhole) (arg4 : Memref sig .tc .vmem S8192x256 .bf16) (harg4 : arg4.IsWhole) (hc0 : ¬cond0_0 i)
    (x0 : Vec F S256x256 .f32) (x1 : Vec F S8192x256 .f32) (xs0 : Vec F S8192x256 .bf16) :
    out0_B_2 c i arg1 harg1 arg2 harg2 arg3 harg3 arg4 harg4 hc0 x0 x1 xs0 = k0_pay2 x0 xs0 := by
  unfold out0_B_2
  rw [View.read_writes_eq_canon _ _ _ (cover0_B_2 c i arg1 harg1 arg2 harg2 arg3 harg3 arg4 harg4 hc0 x0 x1 xs0)]
  unfold kernelRun0_B
  dsimp only
  sl_unfold_words
  rw [View.canon_unit_zero offsets_zero]
  simp only [View.readAt_eq_ld, harg1.read_unread, harg4.read_unread, View.ld_unit_zero (S := S256x256) offsets_zero,
    View.ld_unit_zero (S := S8192x256) offsets_zero]

end Cert.KernelIdeal.Pieces

end
-- ==== Proof.Carry.lean ====
/-
  What the output block's buffer and the scratch hold after each grid point.

  The scratch is written at the first grid point only, with the scaled codebook of the codebook block fetched there,
  and every later point leaves it as it found it: so after every point it holds that same scaled codebook. The
  output block's buffer holds, after point n, the product of the scaled block n of query rows with the transpose of
  the scaled codebook. By induction on the point.
-/
import proofs.«130160_g72834055405689_cont_9to1c4b_399_5_alg».proof.Proof.Pieces

noncomputable section

namespace Cert.KernelIdeal.Carry

open Idealize.ShloMosaic Idealize.ShloMosaic.TcCoe Idealize.SL.Sem Cert.KernelIdeal Cert.KernelIdeal.Gen
open Cert.KernelIdeal.Pieces

variable {F : FTy → Type} [FloatOps F]
variable (m : (ℓ : Loc nD τ sig) → Buf (Elt F) ℓ)

theorem grid_pos : 0 < cfg0.N := by rw [show cfg0.N = 32 from N_0]; decide

/-- The codebook block the first grid point fetches. -/
abbrev codebook (c : Dev nD) : Vec F S8192x256 .f32 := iblk m c 1 ⟨0, grid_pos⟩

/-- After point n: the output block's buffer holds the product of the scaled query block n with the scaled codebook,
    and the scratch holds the scaled codebook. -/
theorem after_point (c : Dev nD) : ∀ (n : ℕ) (h : n < cfg0.N),
    outsAt0 m c n h = (k0_pay2 (iblk m c 0 ⟨n, h⟩) (k0_pay1 (codebook m c)), k0_pay1 (codebook m c))
  | 0, h =>
    (outsAt0_A m c ⟨0, h⟩ rfl).trans (congrArg₂ Prod.mk
      (block_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) ((hcond0_0 ⟨0, h⟩).mpr rfl) (iblk m c 0 ⟨0, h⟩) (iblk m c 1 ⟨0, h⟩))
      (scratch_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) ((hcond0_0 ⟨0, h⟩).mpr rfl) (iblk m c 0 ⟨0, h⟩) (iblk m c 1 ⟨0, h⟩)))
  | n + 1, h => by
    have hN : cfg0.N = 32 := N_0
    have hB : ¬(⟨n + 1, h⟩ : Fin cfg0.N).val % 32 = 0 := by dsimp only; omega
    have ih := after_point c n (Nat.lt_of_succ_lt h)
    refine (outsAt0_B m c ⟨n + 1, h⟩ hB).trans ?_
    refine congrArg₂ Prod.mk ((block_later c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) (fun h' => hB ((hcond0_0 ⟨n + 1, h⟩).mp h'))
      (iblk m c 0 ⟨n + 1, h⟩) (iblk m c 1 ⟨n + 1, h⟩) _).trans ?_) ?_
    · show k0_pay2 (iblk m c 0 ⟨n + 1, h⟩) (outsAt0 m c n (Nat.lt_of_succ_lt h)).2 = _
      rw [ih]
    · show (outsAt0 m c n (Nat.lt_of_succ_lt h)).2 = _
      rw [ih]

end Cert.KernelIdeal.Carry

end
-- ==== Proof.LibColumn.lean ====
/-
  A column of per-row values laid beside a matrix, read at an index.

  A reduction over a matrix's second axis with the axis kept ("keepdims") leaves one value per row, stored as a
  vector of length a, re-cast as an a × 1 column, and then broadcast across the b columns of the matrix it is
  combined with.  At entry (p, c) each of these re-layings reads the one value of row p: the cast keeps the row-major
  position, and the broadcast reads a unit axis at coordinate 0 whatever the column.
-/
import Idealize.ShloMosaic.Lib.Pipeline.Value
import Idealize.ShloMosaic.Lib.ValueIdx

namespace Cert.LibColumn

open Idealize.ShloMosaic Idealize.ShloMosaic.ValueIdx

variable {α : Type}

/-- A vector of length `a` cast to an `a × 1` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column cast to itself is itself. -/
theorem shapeCast_a1_a1_apply {a : ℕ} (x : (⟨2, ![a, 1]⟩ : Shape).Idx → α) (h : (⟨2, ![a, 1]⟩ : Shape).ShapeCasts ⟨2, ![a, 1]⟩)
    (j : (⟨2, ![a, 1]⟩ : Shape).Idx) : shapeCast ⟨2, ![a, 1]⟩ x h j = x j := by
  rw [shapeCast_self]

/-- An `a × 1` column broadcast across `b` columns reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Cert.LibColumn
-- ==== Proof.LibRowUnit.lean ====
/-
  A matrix's rows divided by their Euclidean length plus a constant, read at an index, on the extended reals.

  For an a × n matrix x and a float word e, the chain "square every entry, sum each row over its n entries, take the
  square root of each row's sum, add the value of e, spread the a results back across the n columns, divide x by
  them" leaves at entry (p, d) the quotient of x (p, d) by sqrt (sum over d' of x (p, d') * x (p, d')) + value of e.
  Only row p enters: the row sum is kept as a column (one value per row), and the column is read at row p whatever
  the column d. Nothing here needs finiteness; the sum is only re-indexed by the row's coordinate.
-/
import Idealize.ShloMosaic.Lib.ValueIdx
import Idealize.ShloMosaic.PureOps.Ideal.Laws
import proofs.«130160_g72834055405689_cont_9to1c4b_399_5_alg».proof.Proof.LibColumn

noncomputable section

namespace Cert.LibRowUnit

open Idealize.ShloMosaic Idealize.ShloMosaic.ValueIdx

variable {a n : ℕ}

/-- The sum of a row's squares: the lane reduction of x * x over the second axis, at row p, is the sum over the
    row's n entries of the entry times itself. -/
theorem sumsq_apply (x : FVec Ideal ⟨2, ![a, n]⟩ .f32) (h : Shape.Reduces ⟨2, ![a, n]⟩ [1] ⟨1, ![a]⟩)
    (hφ : FKind.Formats .f32) (hacc : (0x00000000#32 : BitVec 32) = FKind.add.neutral .f32 hφ) (p : Fin a) :
    multiReduction .add [1] ⟨1, ![a]⟩ (mulf x x) 0x00000000#32 h hφ hacc (ix1 p)
      = ∑ d : Fin n, x (ix2 p d) * x (ix2 p d) := by
  refine (Ideal.multiReduction_add_single (mulf x x) 0x00000000#32 h hφ hacc (ix1 p)).trans ?_
  refine Finset.sum_congr rfl fun d _ => ?_
  have e : h.lift (ix1 p) d = ix2 p d :=
    funext fun c => Fin.ext (by match c with | ⟨0, _⟩ => rfl | ⟨1, _⟩ => rfl)
  rw [e]
  rfl

/-- The row's length plus the constant, kept as a column: at (p, 0) it is sqrt (sum of the row's squares) + value of e. -/
theorem scale_apply (x : FVec Ideal ⟨2, ![a, n]⟩ .f32) (h : Shape.Reduces ⟨2, ![a, n]⟩ [1] ⟨1, ![a]⟩)
    (hφ : FKind.Formats .f32) (hacc : (0x00000000#32 : BitVec 32) = FKind.add.neutral .f32 hφ)
    (hc : (⟨1, ![a]⟩ : Shape).ShapeCasts ⟨2, ![a, 1]⟩) (e : BitVec 32) (p : Fin a) :
    addf (sqrt (shapeCast ⟨2, ![a, 1]⟩ (multiReduction .add [1] ⟨1, ![a]⟩ (mulf x x) 0x00000000#32 h hφ hacc) hc))
        (broadcast ⟨2, ![a, 1]⟩ (Scalar.ofBits (F := Ideal) .f32 e)) (ix2 p (0 : Fin 1))
      = Ideal.sqrt (∑ d : Fin n, x (ix2 p d) * x (ix2 p d)) + Ideal.ofBits .f32 e := by
  show Ideal.sqrt (shapeCast ⟨2, ![a, 1]⟩ (multiReduction .add [1] ⟨1, ![a]⟩ (mulf x x) 0x00000000#32 h hφ hacc) hc (ix2 p (0 : Fin 1)))
      + Ideal.ofBits .f32 e = _
  rw [Cert.LibColumn.shapeCast_a_a1_apply, sumsq_apply]

/-- The normalized matrix at (p, d): x (p, d) divided by row p's length plus the constant. -/
theorem rowUnit_apply (x : FVec Ideal ⟨2, ![a, n]⟩ .f32) (h : Shape.Reduces ⟨2, ![a, n]⟩ [1] ⟨1, ![a]⟩)
    (hφ : FKind.Formats .f32) (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, n]⟩)
    (e : BitVec 32) (p : Fin a) (d : Fin n) :
    divf x (broadcastTo ⟨2, ![a, n]⟩
        (addf (sqrt (shapeCast ⟨2, ![a, 1]⟩ (multiReduction .add [1] ⟨1, ![a]⟩ (mulf x x) 0x00000000#32 h hφ hacc) hc))
          (broadcast ⟨2, ![a, 1]⟩ (Scalar.ofBits (F := Ideal) .f32 e))) hb) (ix2 p d)
      = Ideal.div (x (ix2 p d)) (Ideal.sqrt (∑ d' : Fin n, x (ix2 p d') * x (ix2 p d')) + Ideal.ofBits .f32 e) := by
  show Ideal.div (x (ix2 p d)) (broadcastTo ⟨2, ![a, n]⟩ _ hb (ix2 p d)) = _
  rw [Cert.LibColumn.broadcastTo_a1_ab_apply, scale_apply]

end Cert.LibRowUnit

end
-- ==== Proof.LibDotT.lean ====
/-
  A matrix product with the transpose of the right factor, read at an index, on the extended reals.

  For a rows × contraction by columns × contraction product — the dimension numbers that contract the left operand's
  second axis with the right operand's SECOND axis, with no batch axis — the entry at (i, j) of the host's
  `dot_general`, and of a `tpu.matmul` accumulated into the zero splat, is the plain sum over the contraction
  coordinate k of l (i, k) · r (j, k): row i of the left operand against row j of the right one. The sum over the
  product's own contraction index is re-indexed through the bijection between a one-axis contraction index and its
  coordinate; the operand indices are computed from the dimension numbers: the left operand reads the result's first
  coordinate on its first axis, the right operand reads the result's second coordinate on its first axis, and both
  read the contraction coordinate on their second axis. Nothing here needs finiteness: only that the sum is re-indexed.
-/
import Idealize.ShloMosaic.Lib.ValueIdx
import Idealize.ShloMosaic.PureOps.Ideal.Laws

noncomputable section

namespace Cert.LibDotT

open Idealize.ShloMosaic Idealize.ShloMosaic.ValueIdx

variable {M K N : Nat}

/-- The contraction of row `y 0` of `l` with row `y 1` of `r`: the sum over the product's contraction index is
    the sum over the one contracted coordinate. -/
theorem sum_transposed (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (l : (⟨2, ![M, K]⟩ : Shape).Idx → EReal) (r : (⟨2, ![N, K]⟩ : Shape).Idx → EReal) (y : (⟨2, ![M, N]⟩ : Shape).Idx) :
    ∑ q : d.contr.Idx, l (d.lhsIdx y q) * r (d.rhsIdx y q) = ∑ k : Fin K, l (ix2 (y 0) k) * r (ix2 (y 1) k) := by
  obtain ⟨lc, rc, ln, rn, lb, rb, wf⟩ := d
  dsimp only at hlc hrc hln hrn hlb hrb
  subst hlc hrc hln hrn hlb hrb
  rw [← Equiv.sum_comp (contrEquiv1 (⟨[1], [1], [0], [0], [], [], wf⟩ : DotDims ⟨2, ![M, K]⟩ ⟨2, ![N, K]⟩ ⟨2, ![M, N]⟩) K rfl rfl).symm]
  refine Finset.sum_congr rfl fun k _ => ?_
  have hk := contrEquiv1_symm_val (⟨[1], [1], [0], [0], [], [], wf⟩ : DotDims ⟨2, ![M, K]⟩ ⟨2, ![N, K]⟩ ⟨2, ![M, N]⟩) K rfl rfl k
  have el : DotDims.lhsIdx (⟨[1], [1], [0], [0], [], [], wf⟩ : DotDims ⟨2, ![M, K]⟩ ⟨2, ![N, K]⟩ ⟨2, ![M, N]⟩) y
      ((contrEquiv1 (⟨[1], [1], [0], [0], [], [], wf⟩ : DotDims ⟨2, ![M, K]⟩ ⟨2, ![N, K]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [1], [0], [0], [], [], wf⟩ : DotDims ⟨2, ![M, K]⟩ ⟨2, ![N, K]⟩ ⟨2, ![M, N]⟩) y
      ((contrEquiv1 (⟨[1], [1], [0], [0], [], [], wf⟩ : DotDims ⟨2, ![M, K]⟩ ⟨2, ![N, K]⟩ ⟨2, ![M, N]⟩) K rfl rfl).symm k)
      = ix2 (y 1) k := funext fun a => Fin.ext (by
    match a with
    | ⟨0, _⟩ =>
      unfold DotDims.rhsIdx
      rw [dif_neg (by simp), dif_pos (by simp)]
      rfl
    | ⟨1, _⟩ => exact (DotDims.rhsIdx_val_of_single _ rfl y _).trans hk)
  rw [el, er]
  rfl

variable {φ₁ φ₂ : FTy}

/-- The host's `dot_general` of those dimension numbers, at an index: the sum over the contracted coordinate. -/
theorem dotGeneral_transposed_apply (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (sched : HostSchedule)
    (l : FVec Ideal ⟨2, ![M, K]⟩ φ₁) (r : FVec Ideal ⟨2, ![N, K]⟩ φ₂) (y : (⟨2, ![M, N]⟩ : Shape).Idx) :
    FloatOps.dotGeneral d prec sched l r y = ∑ k : Fin K, l (ix2 (y 0) k) * r (ix2 (y 1) k) := by
  rw [Ideal.dotGeneral_apply]
  exact sum_transposed d hlc hrc hln hrn hlb hrb l r y

/-- A `tpu.matmul` of those dimension numbers into the zero accumulator, at an index: the same sum. -/
theorem matmul_zero_transposed_apply (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision)
    (l : FVec Ideal ⟨2, ![M, K]⟩ φ₁) (r : FVec Ideal ⟨2, ![N, K]⟩ φ₂) (y : (⟨2, ![M, N]⟩ : Shape).Idx) :
    FloatOps.matmul d prec l r (constant ⟨2, ![M, N]⟩ .f32 0x00000000#32) y
      = ∑ k : Fin K, l (ix2 (y 0) k) * r (ix2 (y 1) k) := by
  rw [Ideal.matmul_constant_zero_apply]
  exact sum_transposed d hlc hrc hln hrn hlb hrb l r y

end Cert.LibDotT

end
-- ==== Proof.Payload.lean ====
/-
  What the kernel body stores, read at an index on the extended reals.

  The body stores two values. Into the scratch it stores the codebook with every row scaled to unit length (rounded
  to a narrower float format, which is the identity on the extended reals): entry (k, d) is unit (row k of the
  codebook) d. Into the output block it stores the product of the scaled block of 256 query rows with the transpose of
  whatever the scratch holds: entry (p, k) is the sum over d of unit (query row p) d times the scratch at (k, d).
-/
import proofs.«130160_g72834055405689_cont_9to1c4b_399_5_alg».proof.Proof.Gen.KernelIdeal.Skeleton
import proofs.«130160_g72834055405689_cont_9to1c4b_399_5_alg».proof.Proof.Spec
import proofs.«130160_g72834055405689_cont_9to1c4b_399_5_alg».proof.Proof.LibRowUnit
import proofs.«130160_g72834055405689_cont_9to1c4b_399_5_alg».proof.Proof.LibDotT

noncomputable section

namespace Cert.KernelIdeal.Payload

open Idealize.ShloMosaic Idealize.ShloMosaic.ValueIdx Cert.KernelIdeal Cert.KernelIdeal.Gen Cert.Cosine

/-- The scaled codebook: the stored scratch value at (k, d) is row k of the loaded codebook scaled, at d. -/
theorem scaled_codebook_apply (v17 : Vec Ideal S8192x256 .f32) (k : Fin 8192) (d : Fin 256) :
    k0_pay1 (F := Ideal) v17 (ix2 k d) = unit (fun d' => v17 (ix2 k d')) d := by
  unfold k0_pay1
  dsimp only
  refine (congrFun (shapeCast_self _ _) (ix2 k d)).trans ?_
  exact Cert.LibRowUnit.rowUnit_apply (a := 8192) (n := 256) v17 reduces_S8192x256_S8192 (.inl rfl) rfl
    shapeCasts_S8192_S8192x1 broadcasts_S8192x1_S8192x256 0x322BCC77#32 k d

/-- The output block: the stored value at (p, k) is the sum over d of the scaled query row p at d times the scratch
    contents at (k, d). -/
theorem block_logits_apply (v3 : Vec Ideal S256x256 .f32) (v14 : Vec Ideal S8192x256 .bf16) (p : Fin 256) (k : Fin 8192) :
    k0_pay2 (F := Ideal) v3 v14 (ix2 p k)
      = ∑ d : Fin 256, unit (fun d' => v3 (ix2 p d')) d * v14 (ix2 k d) := by
  unfold k0_pay2
  dsimp only
  refine (Cert.LibDotT.matmul_zero_transposed_apply (M := 256) (K := 256) (N := 8192) (φ₁ := .bf16) (φ₂ := .bf16)
    dot_S256x256_S8192x256_S256x8192_1_1_0_0_n_n rfl rfl rfl rfl rfl rfl none _ (v14 : FVec Ideal S8192x256 .bf16)
    (ix2 p k)).trans ?_
  refine Finset.sum_congr rfl fun d _ => ?_
  refine congrArg (· * v14 (ix2 k d)) ?_
  rw [shapeCast_self]
  exact Cert.LibRowUnit.rowUnit_apply (a := 256) (n := 256) v3 reduces_S256x256_S256 (.inl rfl) rfl
    shapeCasts_S256_S256x1 broadcasts_S256x1_S256x256 0x322BCC77#32 p d

/-- The block product against the scaled codebook, at (p, k), is the logit of a query row against a codebook row, as
    soon as row p of the loaded query block is row r of an array Z and row k of the loaded codebook is row k of an
    array S. -/
theorem block_entry_logit (x0 : Vec Ideal S256x256 .f32) (x1 : Vec Ideal S8192x256 .f32)
    (Z S : S8192x256.Idx → EReal) (p : Fin 256) (k r : Fin 8192)
    (hq : ∀ d : Fin 256, x0 (ix2 p d) = Z (ix2 r d)) (hs : ∀ d : Fin 256, x1 (ix2 k d) = S (ix2 k d)) :
    k0_pay2 (F := Ideal) x0 (k0_pay1 (F := Ideal) x1) (ix2 p k)
      = logit (fun d => Z (ix2 r d)) (fun d => S (ix2 k d)) := by
  refine (block_logits_apply x0 _ p k).trans ?_
  unfold logit
  refine Finset.sum_congr rfl fun d _ => ?_
  rw [scaled_codebook_apply, show (fun d' => x0 (ix2 p d')) = fun d' => Z (ix2 r d') from funext hq,
    show (fun d' => x1 (ix2 k d')) = fun d' => S (ix2 k d') from funext hs]

end Cert.KernelIdeal.Payload

end
-- ==== Proof.Whole.lean ====
/-
  From blocks to the array: the kernel's result array holds every logit.

  Grid point t stages rows 256 t … 256 t + 255 of the 8192 × 256 query array and the whole 8192 × 256 codebook, and
  writes back rows 256 t … 256 t + 255 of the 8192 × 8192 result array, all 8192 columns. What it writes back at
  (256 t + p, k) is the product of the scaled query block's row p with row k of the scaled codebook, that is the logit of
  query row 256 t + p against codebook row k. The 32 points' blocks tile the result array (row r is in the block of point
  r / 256), so the array ends holding the logit of query row r against codebook row k at every (r, k).
-/
import proofs.«130160_g72834055405689_cont_9to1c4b_399_5_alg».proof.Proof.Carry
import proofs.«130160_g72834055405689_cont_9to1c4b_399_5_alg».proof.Proof.Payload
import Idealize.ShloMosaic.Lib.Pipeline.Value

noncomputable section

namespace Cert.KernelIdeal.Whole

open Idealize.ShloMosaic Idealize.ShloMosaic.TcCoe Idealize.SL.Sem Idealize.ShloMosaic.ValueIdx
open Cert.KernelIdeal Cert.KernelIdeal.Gen Cert.KernelIdeal.Carry Cert.KernelIdeal.Payload Cert.Cosine
open Idealize.ShloMosaic.Pipeline (Dat)

variable (m : (ℓ : Loc nD τ sig) → Buf (Elt Ideal) ℓ)

/-- Every logit of the rows of a query array Z against the rows of a codebook S, as an 8192 × 8192 array. -/
def logits (Z S : S8192x256.Idx → EReal) : S8192x8192.Idx → EReal :=
  fun j => logit (fun d => Z (ix2 (j 0) d)) (fun d => S (ix2 (j 1) d))

/-- The printed index maps, decided over the grid: the query window and the result window are at block (t, 0) at
    point t, the codebook window at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the query block of point t is row 256 t + p of the query array as the region finds it. -/
theorem query_block_apply (c : Dev nD) (t : Fin cfg0.N) (p d : Fin 256) (r : Fin 8192) (hr : r.val = t.val * 256 + p.val) :
    (iblk m c 0 t : Vec Ideal S256x256 .f32) (ix2 p d) = (V m c main_v0 : S8192x256.Idx → EReal) (ix2 r d) := by
  obtain ⟨e0, e1, -⟩ := idx_facts t
  have h : ((cfg0.win 0).blk t).view.emb (ix2 p d) = ix2 r d := by
    funext a; apply Fin.ext
    match a with
    | ⟨0, _⟩ => show win0_0.index t (0 : Fin 2) * 256 + 1 * p.val = r.val; rw [e0, hr]; omega
    | ⟨1, _⟩ => show win0_0.index t (1 : Fin 2) * 256 + 1 * d.val = d.val; rw [e1]; omega
  show V m c main_v0 (((cfg0.win 0).blk t).view.emb (ix2 p d)) = _
  rw [h]

/-- The codebook block of the first point is the codebook array as the region finds it. -/
theorem codebook_apply (c : Dev nD) (k : Fin 8192) (d : Fin 256) :
    (codebook m c) (ix2 k d) = (V m c main_arg1 : S8192x256.Idx → EReal) (ix2 k d) := by
  obtain ⟨-, -, e2, e3, -⟩ := idx_facts (⟨0, grid_pos⟩ : Fin cfg0.N)
  have h : ((cfg0.win 1).blk ⟨0, grid_pos⟩).view.emb (ix2 k d) = ix2 k d := by
    funext a; apply Fin.ext
    match a with
    | ⟨0, _⟩ => show win0_1.index ⟨0, grid_pos⟩ (0 : Fin 2) * 8192 + 1 * k.val = k.val; rw [e2]; omega
    | ⟨1, _⟩ => show win0_1.index ⟨0, grid_pos⟩ (1 : Fin 2) * 256 + 1 * d.val = d.val; rw [e3]; omega
  show V m c main_arg1 (((cfg0.win 1).blk ⟨0, grid_pos⟩).view.emb (ix2 k d)) = _
  rw [h]

/-- What point t writes back is block t of the logits of the query array against the codebook array. -/
theorem flushed_eq (c : Dev nD) (t : Fin cfg0.N) :
    (dats m 0 c).flushed 2 t
      = ((cfg0.win 2).blk t).view.read (Elt Ideal) (logits (V m c main_v0) (V m c main_arg1)) := by
  show (cfg0.win 2).cut (grid0.coords t) ((dats m 0 c).after 2 t) = _
  rw [after0_2, after_point]
  funext j
  obtain ⟨p, k, rfl⟩ : ∃ (p : Fin 256) (k : Fin 8192), j = ix2 p k := ⟨j 0, j 1, eq_ix2 j⟩
  have hN : cfg0.N = 32 := N_0
  have ht : t.val < 32 := lt_of_lt_of_eq t.isLt hN
  obtain ⟨-, -, -, -, e4, e5⟩ := idx_facts t
  have hemb : ((cfg0.win 2).blk t).view.emb (ix2 p k) = ix2 (⟨t.val * 256 + p.val, by omega⟩ : Fin 8192) k := by
    funext a; apply Fin.ext
    match a with
    | ⟨0, _⟩ => show win0_2.index t (0 : Fin 2) * 256 + 1 * p.val = t.val * 256 + p.val; rw [e4]; omega
    | ⟨1, _⟩ => show win0_2.index t (1 : Fin 2) * 8192 + 1 * k.val = k.val; rw [e5]; omega
  show k0_pay2 (F := Ideal) (iblk m c 0 t) (k0_pay1 (F := Ideal) (codebook m c)) (ix2 p k)
    = logits (V m c main_v0) (V m c main_arg1) (((cfg0.win 2).blk t).view.emb (ix2 p k))
  rw [hemb]
  exact block_entry_logit (iblk m c 0 t) (codebook m c) (V m c main_v0) (V m c main_arg1) p k
    ⟨t.val * 256 + p.val, by omega⟩ (fun d => query_block_apply m c t p d _ rfl) (fun d => codebook_apply m c k d)

/-- An index of the result array is in point t's block iff each coordinate is in the block's range on its axis. -/
theorem mem_blk (t : Fin cfg0.N) (i : S8192x8192.Idx) :
    i ∈ ((cfg0.win 2).blk t).view.set ↔ ∀ a : Fin 2, win0_2.index t a * S256x8192.size a ≤ (i a).val
      ∧ (i a).val < win0_2.index t a * S256x8192.size a + S256x8192.size a := by
  show i ∈ ((View.whole main_v1).slice (win0_2.rect t)).set ↔ _
  rw [View.set_slice_whole, Rect.mem_set_unit]
  exact Iff.rfl

/-- Every index of the result array is in some point's block: row r in the block of point r / 256. -/
theorem covered (i : S8192x8192.Idx) :
    ∃ t : Fin cfg0.N, (cfg0.win 2).flush t = true ∧ i ∈ ((cfg0.win 2).blk t).view.set := by
  have hN : cfg0.N = 32 := N_0
  have hi0 : (i 0).val < 8192 := (i 0).isLt
  have hi1 : (i 1).val < 8192 := (i 1).isLt
  have hq : (i 0).val / 256 < cfg0.N := by rw [hN]; omega
  obtain ⟨-, -, -, -, e4, e5⟩ := idx_facts ⟨(i 0).val / 256, hq⟩
  refine ⟨⟨(i 0).val / 256, hq⟩, flush0_2 _, ?_⟩
  rw [mem_blk]
  intro a
  match a with
  | ⟨0, _⟩ =>
    show win0_2.index ⟨(i 0).val / 256, hq⟩ (0 : Fin 2) * 256 ≤ (i 0).val
      ∧ (i 0).val < win0_2.index ⟨(i 0).val / 256, hq⟩ (0 : Fin 2) * 256 + 256
    rw [e4]; show (i 0).val / 256 * 256 ≤ (i 0).val ∧ (i 0).val < (i 0).val / 256 * 256 + 256; omega
  | ⟨1, _⟩ =>
    show win0_2.index ⟨(i 0).val / 256, hq⟩ (1 : Fin 2) * 8192 ≤ (i 1).val
      ∧ (i 1).val < win0_2.index ⟨(i 0).val / 256, hq⟩ (1 : Fin 2) * 8192 + 8192
    rw [e5]; omega

/-- The result array after the run: every logit of the query array's rows against the codebook's rows. -/
theorem final (c : Dev nD) : (dats m 0 c).arrAt 2 cfg0.N = logits (V m c main_v0) (V m c main_arg1) :=
  (dats m 0 c).arrAt_eq_of_cover 2 (logits (V m c main_v0) (V m c main_arg1)) (fun t _ => flushed_eq m c t) covered

end Cert.KernelIdeal.Whole

end
-- ==== Proof.LibMergeRows.lean ====
/-
  Merging an array's two leading axes into one axis of rows, and splitting them again, read at an index.

  A reshape keeps every element's row-major position. For an A × B × C array read as R × C rows (R = A · B), the row
  b · B + l of the merged array is the row (b, l) of the original: entry (b · B + l, d) is entry (b, l, d). For an
  R × K array read as A × B × K, entry (b, l, k) is entry (b · B + l, k). The row-major position of (b, l, d) is
  (b · B + l) · C + d, the position of (r, d) is r · C + d, and the two agree when r = b · B + l.
-/
import Idealize.ShloMosaic.Lib.Pipeline.Value
import Idealize.ShloMosaic.Lib.ValueIdx

namespace Cert.LibMergeRows

open Idealize.ShloMosaic Idealize.ShloMosaic.ValueIdx

variable {α : Type}

/-- An A × B × C array reshaped to R × C, at (r, d) with r = b · B + l, reads the array at (b, l, d). -/
theorem shapeCast_merge_apply {A B C R : ℕ} (x : (⟨3, ![A, B, C]⟩ : Shape).Idx → α)
    (h : (⟨3, ![A, B, C]⟩ : Shape).ShapeCasts ⟨2, ![R, C]⟩) (b : Fin A) (l : Fin B) (d : Fin C) (r : Fin R)
    (hr : r.val = b.val * B + l.val) : shapeCast ⟨2, ![R, C]⟩ x h (ix2 r d) = x (ix3 b l d) :=
  shapeCast_apply x h _ _ (by
    rw [Shape.rowMajor_val_three, Shape.rowMajor_val_two]
    show (b.val * B + l.val) * C + d.val = r.val * C + d.val
    rw [hr])

/-- An R × K array reshaped to A × B × K, at (b, l, k), reads the array at (r, k) with r = b · B + l. -/
theorem shapeCast_split_apply {A B K R : ℕ} (y : (⟨2, ![R, K]⟩ : Shape).Idx → α)
    (h : (⟨2, ![R, K]⟩ : Shape).ShapeCasts ⟨3, ![A, B, K]⟩) (b : Fin A) (l : Fin B) (k : Fin K) (r : Fin R)
    (hr : r.val = b.val * B + l.val) : shapeCast ⟨3, ![A, B, K]⟩ y h (ix3 b l k) = y (ix2 r k) :=
  shapeCast_apply y h _ _ (by
    rw [Shape.rowMajor_val_two, Shape.rowMajor_val_three]
    show r.val * K + k.val = (b.val * B + l.val) * K + k.val
    rw [hr])

end Cert.LibMergeRows
-- ==== Proof.Result.lean ====
/-
  The kernel's run, read: its result is every logit of the query rows against the codebook rows.

  Around the pipelined region the program reshapes the 8 × 1024 × 256 query array to 8192 × 256 rows (row 1024 b + l is
  the query row (b, l)) and reshapes the region's 8192 × 8192 result back to 8 × 1024 × 8192. The codebook is passed as it
  is. So the result at (b, l, k) is the region's result at (1024 b + l, k), the logit of row 1024 b + l of the reshaped
  query array, that is of query row (b, l), against codebook row k.
-/
import proofs.«130160_g72834055405689_cont_9to1c4b_399_5_alg».proof.Proof.Whole
import proofs.«130160_g72834055405689_cont_9to1c4b_399_5_alg».proof.Proof.LibMergeRows
import Idealize.ShloMosaic.Lib.StableHlo.Run
import Idealize.ShloMosaic.Lib.Tactic

noncomputable section

namespace Cert.KernelIdeal.Result

open Idealize.ShloMosaic Idealize.ShloMosaic.TcCoe Idealize.SL.Sem Idealize.ShloMosaic.ValueIdx
open Cert.KernelIdeal Cert.KernelIdeal.Gen Cert.KernelIdeal.Whole Cert.Cosine
open Idealize.ShloMosaic.StableHlo

variable (m : (ℓ : Loc nD τ sig) → Buf (Elt Ideal) ℓ) (ρ : Dev nD → PrngReg)

/-- The query array the region finds is the reshape of the program's first argument. -/
theorem entry_queries (c : Dev nD) :
    (V m c main_v0 : S8192x256.Idx → EReal)
      = shapeCast S8192x256 (m ((c : Thread nD τ).loc main_arg0)) shapeCasts_S8x1024x256_S8192x256 := by
  show StableHlo.after hostOps0 (fun b => m (c, b)) (Proc.devRef .tc main_v0) = _
  after_results
  rfl

/-- The program's result is the reshape of the region's result array. -/
theorem tail_eq (c : Dev nD) :
    Pipeline.afterTail₀ cfgs (dats m) 0 (V0 m) [hostOps1] c main_v2
      = shapeCast S8x1024x8192 ((dats m 0 c).arrAt 2 cfg0.N) shapeCasts_S8192x8192_S8x1024x8192 := by
  unfold Pipeline.afterTail₀
  show StableHlo.after hostOps1 _ (Proc.devRef .tc main_v2) = _
  after_results
  rw [Pipeline.withArrays_arr spec0 launch0.win.arr_inj c _ _ 2]
  rfl

/-- The program's result: every logit of the first argument's rows against the second argument's rows. -/
theorem result_eq (c : Dev nD) :
    Pipeline.afterTail₀ cfgs (dats m) 0 (V0 m) [hostOps1] c main_v2
      = allLogits (m ((c : Thread nD τ).loc main_arg0)) (m ((c : Thread nD τ).loc main_arg1)) := by
  rw [tail_eq, final]
  funext i
  obtain ⟨b, l, k, rfl⟩ : ∃ (b : Fin 8) (l : Fin 1024) (k : Fin 8192), i = ix3 b l k := ⟨i 0, i 1, i 2, eq_ix3 i⟩
  have hr : b.val * 1024 + l.val < 8192 := by omega
  rw [Cert.LibMergeRows.shapeCast_split_apply (A := 8) (B := 1024) (K := 8192) (R := 8192) _ _ b l k
    ⟨b.val * 1024 + l.val, hr⟩ rfl]
  have hZ : (fun d : Fin 256 => (V m c main_v0 : S8192x256.Idx → EReal) (ix2 (⟨b.val * 1024 + l.val, hr⟩ : Fin 8192) d))
      = fun d => m ((c : Thread nD τ).loc main_arg0) (ix3 b l d) := funext fun d => by
    rw [entry_queries]
    exact Cert.LibMergeRows.shapeCast_merge_apply (A := 8) (B := 1024) (C := 256) (R := 8192) _ _ b l d _ rfl
  have hS : (fun d : Fin 256 => (V m c main_arg1 : S8192x256.Idx → EReal) (ix2 k d))
      = fun d => m ((c : Thread nD τ).loc main_arg1) (ix2 k d) := by rw [V_main_arg1]
  show logit (fun d : Fin 256 => (V m c main_v0 : S8192x256.Idx → EReal) (ix2 (⟨b.val * 1024 + l.val, hr⟩ : Fin 8192) d))
      (fun d : Fin 256 => (V m c main_arg1 : S8192x256.Idx → EReal) (ix2 k d)) = _
  rw [hZ, hS]
  rfl

/-- The run, read: the result at every logit, the arguments unchanged. -/
theorem run : θ_run defs (onTc (τ := τ) (main (F := Ideal))) ⟨m, fun _ => 0, ρ⟩ fun r => ∀ c : Dev nD,
      r.2.mem ((c.tc : Thread nD τ).loc main_v2)
        = allLogits (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.Result

end
-- ==== Proof.lean ====
/-
  Cosine-similarity logits of 8 × 1024 query rows against an 8192-row codebook: the kernel against its reference.

  Both programs divide every query row and every codebook row (256 entries each) by its Euclidean length plus the same
  small constant, and contract the scaled rows pairwise: the result at (b, l, k) is the sum over d of the scaled query row
  (b, l) at d times the scaled codebook row k at d. The kernel does this 256 query rows at a time over a grid of 32
  points, scaling the codebook once at the first point into a buffer every later point reads, and rounding the scaled
  rows to a narrower float format before the product; on the extended reals a change of format is the identity, a
  matrix product into a zero accumulator and a lane sum are plain finite sums, and the two programs' sums are the same
  sums term by term. No law of arithmetic beyond re-indexing a finite sum is used, so the precondition (finite inputs)
  is never opened.

  The three frame claims are the generated frames (for the reference, its generated run with the result dropped); the
  idealization rewrote nothing, so its claim is trivial; the algebraic claim states both runs with one function of the two
  argument arrays.
-/
import proofs.«130160_g72834055405689_cont_9to1c4b_399_5_alg».proof.Defs
import proofs.«130160_g72834055405689_cont_9to1c4b_399_5_alg».proof.Proof.Gen.Kernel
import proofs.«130160_g72834055405689_cont_9to1c4b_399_5_alg».proof.Proof.Gen.Kernel.Skeleton
import proofs.«130160_g72834055405689_cont_9to1c4b_399_5_alg».proof.Proof.Gen.Kernel.Launch
import proofs.«130160_g72834055405689_cont_9to1c4b_399_5_alg».proof.Proof.Gen.Kernel.Points
import proofs.«130160_g72834055405689_cont_9to1c4b_399_5_alg».proof.Proof.Gen.Kernel.Frame
import proofs.«130160_g72834055405689_cont_9to1c4b_399_5_alg».proof.Proof.Gen.KernelIdeal
import proofs.«130160_g72834055405689_cont_9to1c4b_399_5_alg».proof.Proof.Gen.KernelIdeal.Skeleton
import proofs.«130160_g72834055405689_cont_9to1c4b_399_5_alg».proof.Proof.Gen.KernelIdeal.Launch
import proofs.«130160_g72834055405689_cont_9to1c4b_399_5_alg».proof.Proof.Gen.KernelIdeal.Points
import proofs.«130160_g72834055405689_cont_9to1c4b_399_5_alg».proof.Proof.Gen.KernelIdeal.Frame
import proofs.«130160_g72834055405689_cont_9to1c4b_399_5_alg».proof.Proof.Gen.ReferenceIdeal
import proofs.«130160_g72834055405689_cont_9to1c4b_399_5_alg».proof.Proof.Gen.Pre_finite_inputs
import proofs.«130160_g72834055405689_cont_9to1c4b_399_5_alg».proof.Proof.RefSide
import proofs.«130160_g72834055405689_cont_9to1c4b_399_5_alg».proof.Proof.Result
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- On the extended reals the kernel's result and the reference's result are the same function of arguments that
    agree: every logit of the first argument's rows against the second argument's rows. -/
theorem algebraic : Cert.algebraic_KernelIdeal_ReferenceIdeal := by
  intro m ρ m' ρ' _ hagree
  refine ⟨fun c => Cert.Cosine.allLogits
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v10_eq _ _).trans (Cert.RefSide.reference_eq _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
